-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S64x10 .f32) (main_arg6 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x10 .f32 := Host.absf main_arg5
  let main_cst_6 : FVec F S_ .f32 := constant S_ .f32 0x7F800000#32
  let main_v20 : FVec F S64x10 .f32 := broadcastInDim S64x10 ![] bcast_S_S64x10 main_cst_6
  let main_v21 : IVec S64x10 1 := cmpf .olt main_v19 main_v20
  let main_c_7 : IVec S_ 1 := constantI S_ 1 1#1
  let main_v22 : IVec S_ 1 := (fun x v => Host.reduce IntOp.andi x v reducesTo_S64x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x10 .f32) (main_arg6 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S100000x64 : Shape := ⟨2, ![100000, 64]⟩
abbrev S5000x128 : Shape := ⟨2, ![5000, 128]⟩
abbrev S5000x64 : Shape := ⟨2, ![5000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x10 : Shape := ⟨2, ![100000, 10]⟩
abbrev S5000x10 : Shape := ⟨2, ![5000, 10]⟩
abbrev S1700000x10 : Shape := ⟨2, ![1700000, 10]⟩
abbrev S1x10 : Shape := ⟨2, ![1, 10]⟩

abbrev nBuf : Space → Nat
  | .hbm => 130
  | .vmem => 10
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x10, .f32⟩
  | 6 => ⟨S10, .f32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x10, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x10, .f32⟩
  | 121 => ⟨S1700000x10, .f32⟩
  | 122 => ⟨S1700000x10, .f32⟩
  | 123 => ⟨S_, .f32⟩
  | 124 => ⟨S100000x10, .f32⟩
  | 125 => ⟨S1700000x1, .i32⟩
  | 126 => ⟨S100000x10, .f32⟩
  | 127 => ⟨S1x10, .f32⟩
  | _ => ⟨S100000x128, .f32⟩

abbrev hbmTy0_1 (i : Nat) : BufTy := match i % 128 with
  | 0 => ⟨S100000x10, .f32⟩
  | 1 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x10, .f32⟩
  | .local _ .vmem, ⟨8, _⟩ => ⟨S5000x10, .f32⟩
  | .local _ .vmem, ⟨9, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x10_S64x10_0_0 : ∀ a, (![0, 0] : Fin 2 → Nat) a + S64x10.size a ≤ S64x10.size a
  h_S64x10 : 0 < S64x10.numel
  inb_S5000x10_S5000x10_0_0 : ∀ a, (![0, 0] : Fin 2 → Nat) a + S5000x10.size a ≤ S5000x10.size a
  h_S5000x10 : 0 < S5000x10.numel
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S5000x128_S128x64_S5000x64_1_0_0_1_n_n_wf : DotDims.WF S5000x128 S128x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x10_S5000x10_1_0_0_1_n_n_wf : DotDims.WF S5000x64 S64x10 S5000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x10.size a ≤ S64x10.size a
  hwx1_1 : ∀ i : grid1.Coords, EltTy.bits .f32 = 32 ∨ (Rect.block (s := S64x10) S64x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x10.size a ≤ S100000x10.size a
  hwx1_2 : ∀ i : grid1.Coords, EltTy.bits .f32 = 32 ∨ (Rect.block (s := S100000x10) S5000x10.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x10 : Shape := ⟨2, ![100000, 10]⟩
abbrev S1700000x10 : Shape := ⟨2, ![1700000, 10]⟩
abbrev S1x10 : Shape := ⟨2, ![1, 10]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x10, .f32⟩
  | 6 => ⟨S10, .f32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x10, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x10, .f32⟩
  | 121 => ⟨S1700000x10, .f32⟩
  | 122 => ⟨S1700000x10, .f32⟩
  | 123 => ⟨S_, .f32⟩
  | 124 => ⟨S100000x10, .f32⟩
  | 125 => ⟨S1700000x1, .i32⟩
  | 126 => ⟨S100000x10, .f32⟩
  | 127 => ⟨S1x10, .f32⟩
  | _ => ⟨S100000x128, .f32⟩

abbrev hbmTy0_1 (i : Nat) : BufTy := match i % 128 with
  | 0 => ⟨S100000x10, .f32⟩
  | 1 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x10_S100000x10_1_0_0_1_n_n_wf : DotDims.WF S100000x64 S64x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

class Facts : Prop extends Facts₀ where

variable [Facts]
-- ==== Proof.RunMem.lean ====
/-
  The idealized kernel's run with its whole final memory kept.

  @main is ten segments: host operations, the first linear layer's pallas_call, host operations (self-loops, degrees,
  the symmetric normalisation, gather, scatter-add, bias, relu), the second layer's pallas_call, and the same host
  operations again. The generated frame follows the TensorCore's buffer contents through those segments as a fold
  `W0, W1, …, W10` from the launch memory and then states only that the seven arguments end as launched. The same launch
  theorem gives more: every unscoped buffer of every core ends holding `W10` at that buffer. That is what a value
  proof reads the result array from, and the frame claim is the special case at the argument buffers.
-/
import proofs.«145060_j9423158247570_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates, nothing faulting, and in
    every final state each unscoped buffer of each core holds the last boundary's contents `W10`: the thread state
    after the last segment holds exactly those buffers at those contents, and holding a buffer beside the state
    interpretation of a final state says the state's memory has those contents there. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no further ghost resource is dealt to a core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      -- each segment's post is the next one's pre as stated; the last one's is regrouped
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- the launch deals each core its unscoped buffers at the launch memory, which is the first boundary `W0`
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Whole

end
-- ==== Proof.BlockProduct.lean ====
/-
  One block of each linear layer, read at an entry, on the extended reals.

  The kernel body of either layer loads a block of rows `a` (5000 × K) and the whole weight matrix `w` (K × N),
  changes both to bf16, and stores `a · w` accumulated into a zero block. At the ideal values a change of float format is
  the identity and the accumulator's zero is the real zero, so the stored block is, at row `r` and column `j`,
  `∑ k, a (r, k) * w (k, j)` — nothing of the rounding or of the order of accumulation is left. (For the second
  layer the body first re-reads its block at the block's own shape, which changes nothing.)
-/
import proofs.«145060_j9423158247570_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.TcCoe

/-! ## The first layer: a 5000 × 128 block of rows times the 128 × 64 weights -/

/-- Entry `(r, k)` of the block of rows, for the output entry `y = (r, j)`. -/
abbrev rowAt1 (y : S5000x64.Idx) (k : Fin 128) : S5000x128.Idx := fun a => match a with
  | ⟨0, _⟩ => ⟨(y 0).val, (y 0).isLt⟩
  | ⟨1, _⟩ => ⟨k.val, k.isLt⟩
/-- Entry `(k, j)` of the weights, for the output entry `y = (r, j)`. -/
abbrev colAt1 (y : S5000x64.Idx) (k : Fin 128) : S128x64.Idx := fun a => match a with
  | ⟨0, _⟩ => ⟨k.val, k.isLt⟩
  | ⟨1, _⟩ => ⟨(y 1).val, (y 1).isLt⟩

theorem lhs1_0 (y : S5000x64.Idx) (q : dot_S5000x128_S128x64_S5000x64_1_0_0_1_n_n.contr.Idx) :
    (dot_S5000x128_S128x64_S5000x64_1_0_0_1_n_n.lhsIdx y q 0).val = (y 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem rhs1_1 (y : S5000x64.Idx) (q : dot_S5000x128_S128x64_S5000x64_1_0_0_1_n_n.contr.Idx) :
    (dot_S5000x128_S128x64_S5000x64_1_0_0_1_n_n.rhsIdx y q 1).val = (y 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first layer's stored block at an entry: the row of the loaded block against the column of the weights. -/
theorem pay1_apply (a : Vec Ideal S5000x128 .f32) (w : Vec Ideal S128x64 .f32) (y : S5000x64.Idx) :
    k0_pay1 (F := Ideal) a w y = ∑ k : Fin 128, a (rowAt1 y k) * w (colAt1 y k) := by
  unfold k0_pay1
  show FloatOps.matmul dot_S5000x128_S128x64_S5000x64_1_0_0_1_n_n none a w (constant (F := Ideal) S5000x64 .f32 0x00000000#32) y = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx y ((ValueIdx.contrEquiv1 dot_S5000x128_S128x64_S5000x64_1_0_0_1_n_n 128 rfl rfl).symm k) = rowAt1 y k := funext fun a => Fin.ext (by
    match a with
    | ⟨0, _⟩ => exact lhs1_0 _ _
    | ⟨1, _⟩ => exact (dot_S5000x128_S128x64_S5000x64_1_0_0_1_n_n.lhsIdx_val_of_single rfl y _).trans hk)
  have er : dot_S5000x128_S128x64_S5000x64_1_0_0_1_n_n.rhsIdx y ((ValueIdx.contrEquiv1 dot_S5000x128_S128x64_S5000x64_1_0_0_1_n_n 128 rfl rfl).symm k) = colAt1 y k := funext fun a => Fin.ext (by
    match a with
    | ⟨0, _⟩ => exact (dot_S5000x128_S128x64_S5000x64_1_0_0_1_n_n.rhsIdx_val_of_single rfl y _).trans hk
    | ⟨1, _⟩ => exact rhs1_1 _ _)
  rw [el, er]

/-! ## The second layer: a 5000 × 64 block of rows times the 64 × 10 weights -/

abbrev rowAt2 (y : S5000x10.Idx) (k : Fin 64) : S5000x64.Idx := fun a => match a with
  | ⟨0, _⟩ => ⟨(y 0).val, (y 0).isLt⟩
  | ⟨1, _⟩ => ⟨k.val, k.isLt⟩
abbrev colAt2 (y : S5000x10.Idx) (k : Fin 64) : S64x10.Idx := fun a => match a with
  | ⟨0, _⟩ => ⟨k.val, k.isLt⟩
  | ⟨1, _⟩ => ⟨(y 1).val, (y 1).isLt⟩

theorem lhs2_0 (y : S5000x10.Idx) (q : dot_S5000x64_S64x10_S5000x10_1_0_0_1_n_n.contr.Idx) :
    (dot_S5000x64_S64x10_S5000x10_1_0_0_1_n_n.lhsIdx y q 0).val = (y 0).val := by
  unfold DotDims.lhsIdx
  rw [dif_neg (show ¬(0 : Fin S5000x64.rank) ∈ dot_S5000x64_S64x10_S5000x10_1_0_0_1_n_n.lhsBatch by decide), dif_pos (show (0 : Fin S5000x64.rank) ∈ dot_S5000x64_S64x10_S5000x10_1_0_0_1_n_n.lhsNonContracting by decide)]
  rfl
theorem rhs2_1 (y : S5000x10.Idx) (q : dot_S5000x64_S64x10_S5000x10_1_0_0_1_n_n.contr.Idx) :
    (dot_S5000x64_S64x10_S5000x10_1_0_0_1_n_n.rhsIdx y q 1).val = (y 1).val := by
  unfold DotDims.rhsIdx
  rw [dif_neg (show ¬(1 : Fin S64x10.rank) ∈ dot_S5000x64_S64x10_S5000x10_1_0_0_1_n_n.rhsBatch by decide), dif_pos (show (1 : Fin S64x10.rank) ∈ dot_S5000x64_S64x10_S5000x10_1_0_0_1_n_n.rhsNonContracting by decide)]
  rfl

/-- The second layer's stored block at an entry. -/
theorem pay2_apply (a : Vec Ideal S5000x64 .f32) (w : Vec Ideal S64x10 .f32) (y : S5000x10.Idx) :
    k1_pay1 (F := Ideal) a w y = ∑ k : Fin 64, a (rowAt2 y k) * w (colAt2 y k) := by
  unfold k1_pay1
  show FloatOps.matmul dot_S5000x64_S64x10_S5000x10_1_0_0_1_n_n none (shapeCast S5000x64 a shapeCasts_S5000x64_S5000x64) w (constant (F := Ideal) S5000x10 .f32 0x00000000#32) y = _
  rw [shapeCast_self]
  rw [Ideal.matmul_constant_zero_apply, ← Equiv.sum_comp (ValueIdx.contrEquiv1 dot_S5000x64_S64x10_S5000x10_1_0_0_1_n_n 64 rfl rfl).symm]
  refine Finset.sum_congr rfl fun k _ => ?_
  have hk := ValueIdx.contrEquiv1_symm_val dot_S5000x64_S64x10_S5000x10_1_0_0_1_n_n 64 rfl rfl k
  have el : dot_S5000x64_S64x10_S5000x10_1_0_0_1_n_n.lhsIdx y ((ValueIdx.contrEquiv1 dot_S5000x64_S64x10_S5000x10_1_0_0_1_n_n 64 rfl rfl).symm k) = rowAt2 y k := funext fun a => Fin.ext (by
    match a with
    | ⟨0, _⟩ => exact lhs2_0 _ _
    | ⟨1, _⟩ => exact (dot_S5000x64_S64x10_S5000x10_1_0_0_1_n_n.lhsIdx_val_of_single rfl y _).trans hk)
  have er : dot_S5000x64_S64x10_S5000x10_1_0_0_1_n_n.rhsIdx y ((ValueIdx.contrEquiv1 dot_S5000x64_S64x10_S5000x10_1_0_0_1_n_n 64 rfl rfl).symm k) = colAt2 y k := funext fun a => Fin.ext (by
    match a with
    | ⟨0, _⟩ => exact (dot_S5000x64_S64x10_S5000x10_1_0_0_1_n_n.rhsIdx_val_of_single rfl y _).trans hk
    | ⟨1, _⟩ => exact rhs2_1 _ _)
  rw [el, er]

end Cert.KernelIdeal.Block

end
-- ==== Proof.Layer1Product.lean ====
/-
  The first pallas_call writes the whole product `x · W1`, and so acts on the buffers as one host matrix product.

  The call runs over 20 grid points. Point `t` stages rows `5000 t … 5000 t + 4999` of its first operand (all 128
  columns), the whole 128 × 64 second operand, and writes back rows `5000 t … 5000 t + 4999` of the 100000 × 64
  result. The body stores the block product, which at the ideal values is the plain sum over the contracted axis
  (Proof/BlockProduct.lean). Row `5000 t + r` of the whole product depends only on row `5000 t + r` of the first operand, so the
  block written back at `t` is the restriction of the whole product to that block, and the 20 blocks tile the result:
  after the call the result array holds the whole product, entry by entry, and the two operand arrays are as before.
  Nothing else changes, which is exactly what the host's `dot_general` into the same buffer does.
-/
import proofs.«145060_j9423158247570_1_alg».proof.Proof.Gen.KernelIdeal.Frame
import proofs.«145060_j9423158247570_1_alg».proof.Proof.Gen.ReferenceIdeal.Read
import proofs.«145060_j9423158247570_1_alg».proof.Proof.BlockProduct
import Idealize.ShloMosaic.Lib.Pipeline.Value
import Idealize.ShloMosaic.Lib.StableHlo.Run

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)

/-- The whole product: the host's matrix product of a 100000 × 128 array and a 128 × 64 array. -/
abbrev prod (X : (⟨S100000x128, .f32⟩ : BufTy).Contents (Elt Ideal)) (W : (⟨S128x64, .f32⟩ : BufTy).Contents (Elt Ideal)) :
    (⟨S100000x64, .f32⟩ : BufTy).Contents (Elt Ideal) :=
  Cert.ReferenceIdeal.Read.val_main_v4 (F := Ideal) X W

/-- Its entry `(i, j)` is `∑ k, X (i, k) * W (k, j)`. -/
theorem prod_apply (X : (⟨S100000x128, .f32⟩ : BufTy).Contents (Elt Ideal)) (W : (⟨S128x64, .f32⟩ : BufTy).Contents (Elt Ideal)) (i : S100000x64.Idx) :
    prod X W i = ∑ k : Fin 128, X (Cert.ReferenceIdeal.Read.lidx_main_v4 i k) * W (Cert.ReferenceIdeal.Read.ridx_main_v4 i k) :=
  Cert.ReferenceIdeal.Read.val_main_v4_apply X W i

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the rows' window and the result's window move together along the rows,
    at block `t`; no window moves along the columns; the weights' window does not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- WHAT POINT `t` WRITES BACK is block `t` of the whole product of the two operand arrays as the call finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e00, e01, e10, e11, e20, e21, _⟩ := idx_facts t
  funext j
  show k0_pay1 (F := Ideal) (iblk0 V c 0 t) (iblk0 V c 1 t) j = prod (V c main_arg0) (V c main_arg3) (((cfg0.win 2).blk t).view.emb j)
  refine (Block.pay1_apply (iblk0 V c 0 t) (iblk0 V c 1 t) j).trans ?_
  refine Eq.trans ?_ (prod_apply (V c main_arg0) (V c main_arg3) (((cfg0.win 2).blk t).view.emb j)).symm
  refine Finset.sum_congr rfl fun k _ => ?_
  have h0 : iblk0 V c 0 t (Block.rowAt1 j k) = V c main_arg0 (Cert.ReferenceIdeal.Read.lidx_main_v4 (((cfg0.win 2).blk t).view.emb j) k) := by
    show V c main_arg0 (((cfg0.win 0).blk t).view.emb (Block.rowAt1 j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (Block.colAt1 j k) = V c main_arg3 (Cert.ReferenceIdeal.Read.ridx_main_v4 (((cfg0.win 2).blk t).view.emb j) k) := by
    show V c main_arg3 (((cfg0.win 1).blk t).view.emb (Block.colAt1 j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Every block of rows is some point's. -/
theorem idx_onto : ∀ q : Fin 20, ∃ t : Fin cfg0.N, win0_2.index t = ![q.val, 0] :=
  (by decide +kernel : ∀ q : Fin 20, ∃ t : Fin grid0.N, win0_2.index t = ![q.val, 0])

/-- The 20 blocks cover the result: row `r` is in block `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE RESULT ARRAY after the call is the whole product of the operand arrays as the call found them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

/-! ## The call as one host operation on the buffers -/

/-- The host's matrix product of the two operand buffers into the result buffer. -/
abbrev hostProduct : HloOp τ sig (Elt Ideal) :=
  StableHlo.binary main_arg0 main_arg3 main_v4 ((fun l r => prod l r) : (⟨S100000x128, .f32⟩ : BufTy).Contents (Elt Ideal) → (⟨S128x64, .f32⟩ : BufTy).Contents (Elt Ideal) → (⟨S100000x64, .f32⟩ : BufTy).Contents (Elt Ideal))

variable (m : (ℓ : Loc nD τ sig) → Buf (Elt Ideal) ℓ) (ρ : Dev nD → PrngReg)

/-- The buffer contents at the call's exit are those the host product leaves from the contents at its entry: the
    result buffer holds the whole product of the two operand buffers (`final`), the operand buffers what they held (an
    input window only reads its array), and every other buffer is untouched by either. -/
theorem exit_eq (c : Dev nD) : W2 m ρ c = (hostProduct : HloOp τ sig (Elt Ideal)).result (W1 m ρ c) := by
  funext b
  by_cases h : ∃ w, Proc.devRef .tc (Pipeline.arrRef spec0 w) = b
  · obtain ⟨w, rfl⟩ := h
    rw [W2_arr]
    rcases w with ⟨_ | _ | _ | n, hw⟩
    · refine (((dat0 (V1 m ρ) c).arrAt_in 0 rfl _).trans (A_eq0 (V1 m ρ) c 0)).trans ?_
      exact (StableHlo.binary_result_ne main_arg0 main_arg3 main_v4 _ _ _ _ (W1 m ρ c) (r := main_arg0) (by decide)).symm
    · refine (((dat0 (V1 m ρ) c).arrAt_in 1 rfl _).trans (A_eq0 (V1 m ρ) c 1)).trans ?_
      exact (StableHlo.binary_result_ne main_arg0 main_arg3 main_v4 _ _ _ _ (W1 m ρ c) (r := main_arg3) (by decide)).symm
    · refine (final (V1 m ρ) c).trans ?_
      exact (StableHlo.binary_result main_arg0 main_arg3 main_v4 _ _ _ _ (W1 m ρ c)).symm
    · exact absurd hw (by have : cfg0.W = 3 := rfl; omega)
  · have hb : b ∉ (hostProduct : HloOp τ sig (Elt Ideal)).writes := by
      rw [StableHlo.binary_writes, Finset.mem_singleton]
      intro e
      exact h ⟨2, e.symm⟩
    rw [HloOp.result_of_not_mem _ _ hb]
    unfold W2 Pipeline.withArrays
    rw [dif_neg h]

end Cert.KernelIdeal.Layer1

end
-- ==== Proof.Layer2Product.lean ====
/-
  The second pallas_call writes the whole product `h · W2`, and so acts on the buffers as one host matrix product.

  The shape of the first layer's argument again, at other sizes. Point `t` of the 20 stages rows `5000 t … 5000 t + 4999`
  of the hidden activations `h` (100000 × 64, all 64 columns) and the whole 64 × 10 weight matrix, and writes back the same
  rows of the 100000 × 10 result. At the ideal values the stored block is the plain sum over the 64 contracted columns
  (Proof/BlockProduct.lean); a row of the product depends only on the same row of `h`, so each written block is the whole product
  restricted to it, and the blocks tile the result.
-/
import proofs.«145060_j9423158247570_1_alg».proof.Proof.Gen.KernelIdeal.Frame
import proofs.«145060_j9423158247570_1_alg».proof.Proof.Gen.ReferenceIdeal.Read
import proofs.«145060_j9423158247570_1_alg».proof.Proof.BlockProduct
import Idealize.ShloMosaic.Lib.Pipeline.Value
import Idealize.ShloMosaic.Lib.StableHlo.Run

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)

/-- The whole product: the host's matrix product of a 100000 × 64 array and a 64 × 10 array. -/
abbrev prod (Y : (⟨S100000x64, .f32⟩ : BufTy).Contents (Elt Ideal)) (W : (⟨S64x10, .f32⟩ : BufTy).Contents (Elt Ideal)) :
    (⟨S100000x10, .f32⟩ : BufTy).Contents (Elt Ideal) :=
  Host.dotGeneral (F := Ideal) (φ₁ := .f32) (φ₂ := .f32) Cert.ReferenceIdeal.dot_S100000x64_S64x10_S100000x10_1_0_0_1_n_n none Y W

/-- Its entry `(i, j)` is `∑ k, Y (i, k) * W (k, j)`: the host's product at the ideal values is the sum over the dot's one
    contracted axis, whose index is a number below 64, and the operands' indices at `(i, j)` and `k` are `(i, k)` and `(k, j)`. -/
theorem prod_apply (Y : (⟨S100000x64, .f32⟩ : BufTy).Contents (Elt Ideal)) (W : (⟨S64x10, .f32⟩ : BufTy).Contents (Elt Ideal)) (i : S100000x10.Idx) :
    prod Y W i = ∑ k : Fin 64, Y (Cert.ReferenceIdeal.Read.lidx_main_v50 i k) * W (Cert.ReferenceIdeal.Read.ridx_main_v50 i k) := by
  unfold prod
  simp only [Host.dotGeneral]
  rw [Ideal.dotGeneral_apply, ← Equiv.sum_comp (ValueIdx.contrEquiv1 Cert.ReferenceIdeal.dot_S100000x64_S64x10_S100000x10_1_0_0_1_n_n 64 rfl rfl).symm]
  refine Finset.sum_congr rfl fun k _ => ?_
  have hk := ValueIdx.contrEquiv1_symm_val Cert.ReferenceIdeal.dot_S100000x64_S64x10_S100000x10_1_0_0_1_n_n 64 rfl rfl k
  have el : Cert.ReferenceIdeal.dot_S100000x64_S64x10_S100000x10_1_0_0_1_n_n.lhsIdx i ((ValueIdx.contrEquiv1 Cert.ReferenceIdeal.dot_S100000x64_S64x10_S100000x10_1_0_0_1_n_n 64 rfl rfl).symm k) = Cert.ReferenceIdeal.Read.lidx_main_v50 i k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : Cert.ReferenceIdeal.dot_S100000x64_S64x10_S100000x10_1_0_0_1_n_n.rhsIdx i ((ValueIdx.contrEquiv1 Cert.ReferenceIdeal.dot_S100000x64_S64x10_S100000x10_1_0_0_1_n_n 64 rfl rfl).symm k) = Cert.ReferenceIdeal.Read.ridx_main_v50 i k := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the rows' window and the result's window are at block `t` along the rows;
    no window moves along the columns; the weights' window does not move. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

/-- WHAT POINT `t` WRITES BACK is block `t` of the whole product of the two operand arrays as the call finds them. -/
theorem flushed_eq (c : Dev nD) (t : Fin cfg1.N) :
    (dat1 V c).flushed 2 t = ((cfg1.win 2).blk t).view.read (Elt Ideal) (prod (V c main_v49) (V c main_arg5)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x10) hz]
  obtain ⟨e00, e01, e10, e11, e20, e21, _⟩ := idx_facts t
  funext j
  show k1_pay1 (F := Ideal) (iblk1 V c 0 t) (iblk1 V c 1 t) j = prod (V c main_v49) (V c main_arg5) (((cfg1.win 2).blk t).view.emb j)
  refine (Block.pay2_apply (iblk1 V c 0 t) (iblk1 V c 1 t) j).trans ?_
  refine Eq.trans ?_ (prod_apply (V c main_v49) (V c main_arg5) (((cfg1.win 2).blk t).view.emb j)).symm
  refine Finset.sum_congr rfl fun k _ => ?_
  have h0 : iblk1 V c 0 t (Block.rowAt2 j k) = V c main_v49 (Cert.ReferenceIdeal.Read.lidx_main_v50 (((cfg1.win 2).blk t).view.emb j) k) := by
    show V c main_v49 (((cfg1.win 0).blk t).view.emb (Block.rowAt2 j k)) = _
    refine congrArg (V c main_v49) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have h1 : iblk1 V c 1 t (Block.colAt2 j k) = V c main_arg5 (Cert.ReferenceIdeal.Read.ridx_main_v50 (((cfg1.win 2).blk t).view.emb j) k) := by
    show V c main_arg5 (((cfg1.win 1).blk t).view.emb (Block.colAt2 j k)) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 10 + 1 * (j 1).val = win1_2.index t (1 : Fin 2) * 10 + 1 * (j 1).val; omega
  rw [h0, h1]

/-- An index of the result is in point `t`'s block iff each coordinate is in the block's range on its axis. -/
theorem mem_blk (t : Fin cfg1.N) (i : S100000x10.Idx) :
    i ∈ ((cfg1.win 2).blk t).view.set ↔ ∀ a : Fin 2, win1_2.index t a * S5000x10.size a ≤ (i a).val ∧ (i a).val < win1_2.index t a * S5000x10.size a + S5000x10.size a := by
  show i ∈ ((View.whole main_v50).slice (win1_2.rect t)).set ↔ _
  rw [View.set_slice_whole, Rect.mem_set_unit]
  exact Iff.rfl

/-- Every block of rows is some point's. -/
theorem idx_onto : ∀ q : Fin 20, ∃ t : Fin cfg1.N, win1_2.index t = ![q.val, 0] :=
  (by decide +kernel : ∀ q : Fin 20, ∃ t : Fin grid1.N, win1_2.index t = ![q.val, 0])

/-- The 20 blocks cover the result: row `r` is in block `r / 5000`. -/
theorem cover (i : S100000x10.Idx) : ∃ t : Fin cfg1.N, (cfg1.win 2).flush t = true ∧ i ∈ ((cfg1.win 2).blk t).view.set := by
  have hi0 : (i 0).val < 100000 := (i 0).isLt
  have hi1 : (i 1).val < 10 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 10 ≤ (i 1).val ∧ (i 1).val < win1_2.index t (1 : Fin 2) * 10 + 10; omega

/-- THE RESULT ARRAY after the call is the whole product of the operand arrays as the call found them. -/
theorem final (c : Dev nD) : (dat1 V c).arrAt 2 cfg1.N = prod (V c main_v49) (V c main_arg5) :=
  (dat1 V c).arrAt_eq_of_cover 2 (prod (V c main_v49) (V c main_arg5)) (fun t _ => flushed_eq V c t) cover

/-! ## The call as one host operation on the buffers -/

/-- The host's matrix product of the two operand buffers into the result buffer. -/
abbrev hostProduct : HloOp τ sig (Elt Ideal) :=
  StableHlo.binary main_v49 main_arg5 main_v50 ((fun l r => prod l r) : (⟨S100000x64, .f32⟩ : BufTy).Contents (Elt Ideal) → (⟨S64x10, .f32⟩ : BufTy).Contents (Elt Ideal) → (⟨S100000x10, .f32⟩ : BufTy).Contents (Elt Ideal))

variable (m : (ℓ : Loc nD τ sig) → Buf (Elt Ideal) ℓ) (ρ : Dev nD → PrngReg)

/-- The buffer contents at the call's exit are those the host product leaves from the contents at its entry: the
    result buffer holds the whole product of the two operand buffers (`final`), the operand buffers what they held,
    and every other buffer is untouched by either. -/
theorem exit_eq (c : Dev nD) : W7 m ρ c = (hostProduct : HloOp τ sig (Elt Ideal)).result (W6 m ρ c) := by
  funext b
  by_cases h : ∃ w, Proc.devRef .tc (Pipeline.arrRef spec1 w) = b
  · obtain ⟨w, rfl⟩ := h
    rw [W7_arr]
    rcases w with ⟨_ | _ | _ | n, hw⟩
    · refine (((dat1 (V6 m ρ) c).arrAt_in 0 rfl _).trans (A_eq1 (V6 m ρ) c 0)).trans ?_
      exact (StableHlo.binary_result_ne main_v49 main_arg5 main_v50 _ _ _ _ (W6 m ρ c) (r := main_v49) (by decide)).symm
    · refine (((dat1 (V6 m ρ) c).arrAt_in 1 rfl _).trans (A_eq1 (V6 m ρ) c 1)).trans ?_
      exact (StableHlo.binary_result_ne main_v49 main_arg5 main_v50 _ _ _ _ (W6 m ρ c) (r := main_arg5) (by decide)).symm
    · refine (final (V6 m ρ) c).trans ?_
      exact (StableHlo.binary_result main_v49 main_arg5 main_v50 _ _ _ _ (W6 m ρ c)).symm
    · exact absurd hw (by have : cfg1.W = 3 := rfl; omega)
  · have hb : b ∉ (hostProduct : HloOp τ sig (Elt Ideal)).writes := by
      rw [StableHlo.binary_writes, Finset.mem_singleton]
      intro e
      exact h ⟨2, e.symm⟩
    rw [HloOp.result_of_not_mem _ _ hb]
    unfold W7 Pipeline.withArrays
    rw [dif_neg h]

end Cert.KernelIdeal.Layer2

end
-- ==== Proof.ResultValue.lean ====
/-
  The idealized kernel's result array is the reference's result term of the same arguments.

  After the run every buffer holds the last boundary's contents `W10` (Proof/RunMem.lean). That boundary is a fold from the
  launch memory through ten segments, two of which are pallas_calls; each of those leaves the buffers exactly as one host
  matrix product would (Proof/Layer1Product.lean, Proof/Layer2Product.lean). So `W10` is the launch memory after a line of host
  operations only — the kernel's own host operations with a host product standing where each call stood — and that line
  is, operation for operation, the reference's @main: the same slices of the edge list, self-loops, weighted degrees,
  `rsqrt` where the degree is positive, gathered and scaled rows, scatter-add and bias, twice, with a relu between. Read
  back at the result buffer it is the reference's result term of the seven argument arrays.

  Two remarks on the terms compared. A concatenation's operands are the contents of earlier buffers like any other
  operand's (`read_rest` reads them). And each of the three outlined calls (`where` twice, `relu` once) hands values to and
  from its buffers through the identification of a buffer's recorded type with its value's type; that identification is
  the identity map, so a call computes `select` or `maximum` of its operands and nothing else (`ofBuf_…`, `toBuf_…`). With
  both read, the two sides are one tree of operations, node for node, over the same argument arrays.
-/
import proofs.«145060_j9423158247570_1_alg».proof.Proof.Layer1Product
import proofs.«145060_j9423158247570_1_alg».proof.Proof.Layer2Product
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

/-- Reads the remaining operations' results, those feeding the concatenations: each step replaces one operation's result
    at its own buffer by its function's value, or at another buffer by what was there before the operation. -/
macro "read_rest" : tactic =>
  `(tactic| repeat (first
      | (rw [binary_result_ne]; rotate_left; decide)
      | (rw [unary_result_ne]; rotate_left; decide)
      | (rw [nullary_result_ne]; rotate_left; decide)
      | (rw [ternary_result_ne]; rotate_left; decide)
      | (rw [reshape_result_ne]; rotate_left; decide)
      | (rw [quaternary_result_ne]; rotate_left; decide)
      | rw [nullary_result] | rw [unary_result] | rw [binary_result] | rw [ternary_result] | rw [quaternary_result]
      | rw [reshape_result]))

/-! ## The outlined calls' transports are the identity

A value written by an outlined call and read back inside it goes through the transport and its inverse. A buffer written
outside a call and read inside it, or the other way round, goes through one of them at a literal buffer, whose recorded type
is the value's type by computation. Stated on variables, one buffer at a time. -/

theorem ofBuf_toBuf {T : BufTy} (x : TRef sig T) (v : T.Contents (Elt Ideal)) : x.ofBuf (x.toBuf v) = v := by
  obtain ⟨r, h, _, _⟩ := x
  subst h
  rfl
theorem ofBuf_cst_2 (p1 p2 p3) (w : (⟨S_, .f32⟩ : BufTy).Contents (Elt Ideal)) :
    (TRef.of main_cst_2 p1 p2 p3 : TRef sig ⟨S_, .f32⟩).ofBuf w = w := rfl
theorem ofBuf_v14 (p1 p2 p3) (w : (⟨S100000, .i1⟩ : BufTy).Contents (Elt Ideal)) :
    (TRef.of main_v14 p1 p2 p3 : TRef sig ⟨S100000, .i1⟩).ofBuf w = w := rfl
theorem ofBuf_v15 (p1 p2 p3) (w : (⟨S100000, .f32⟩ : BufTy).Contents (Elt Ideal)) :
    (TRef.of main_v15 p1 p2 p3 : TRef sig ⟨S100000, .f32⟩).ofBuf w = w := rfl
theorem toBuf_v16 (p1 p2 p3) (w : (⟨S100000, .f32⟩ : BufTy).Contents (Elt Ideal)) :
    (TRef.of main_v16 p1 p2 p3 : TRef sig ⟨S100000, .f32⟩).toBuf w = w := rfl
theorem ofBuf_v48 (p1 p2 p3) (w : (⟨S100000x64, .f32⟩ : BufTy).Contents (Elt Ideal)) :
    (TRef.of main_v48 p1 p2 p3 : TRef sig ⟨S100000x64, .f32⟩).ofBuf w = w := rfl
theorem toBuf_v49 (p1 p2 p3) (w : (⟨S100000x64, .f32⟩ : BufTy).Contents (Elt Ideal)) :
    (TRef.of main_v49 p1 p2 p3 : TRef sig ⟨S100000x64, .f32⟩).toBuf w = w := rfl
theorem ofBuf_cst_12 (p1 p2 p3) (w : (⟨S_, .f32⟩ : BufTy).Contents (Elt Ideal)) :
    (TRef.of main_cst_12 p1 p2 p3 : TRef sig ⟨S_, .f32⟩).ofBuf w = w := rfl
theorem ofBuf_v60 (p1 p2 p3) (w : (⟨S100000, .i1⟩ : BufTy).Contents (Elt Ideal)) :
    (TRef.of main_v60 p1 p2 p3 : TRef sig ⟨S100000, .i1⟩).ofBuf w = w := rfl
theorem ofBuf_v61 (p1 p2 p3) (w : (⟨S100000, .f32⟩ : BufTy).Contents (Elt Ideal)) :
    (TRef.of main_v61 p1 p2 p3 : TRef sig ⟨S100000, .f32⟩).ofBuf w = w := rfl
theorem toBuf_v62 (p1 p2 p3) (w : (⟨S100000, .f32⟩ : BufTy).Contents (Elt Ideal)) :
    (TRef.of main_v62 p1 p2 p3 : TRef sig ⟨S100000, .f32⟩).toBuf w = w := rfl

variable (m : (ℓ : Loc nD τ sig) → Buf (Elt Ideal) ℓ) (ρ : Dev nD → PrngReg)

/-- The last boundary as host operations only: each call's exit rewritten as the host product from its entry. -/
theorem W10_eq (c : Dev nD) :
    W10 m ρ c = after hostOps2_2 (after hostOps2_1 (after hostOps2 ((Layer2.hostProduct : HloOp τ sig (Elt Ideal)).result
      (after hostOps1_3 (after hostOps1_2 (after hostOps1_1 (after hostOps1 ((Layer1.hostProduct : HloOp τ sig (Elt Ideal)).result
        (after hostOps0 (W0 m ρ c)))))))))) := by
  show after hostOps2_2 (after hostOps2_1 (after hostOps2 (W7 m ρ c))) = _
  rw [Layer2.exit_eq m ρ c]
  show after hostOps2_2 (after hostOps2_1 (after hostOps2 ((Layer2.hostProduct : HloOp τ sig (Elt Ideal)).result
      (after hostOps1_3 (after hostOps1_2 (after hostOps1_1 (after hostOps1 (W2 m ρ c)))))))) = _
  rw [Layer1.exit_eq m ρ c]

set_option maxHeartbeats 49200000 in
/-- THE RESULT: from a reference memory agreeing with the kernel's on the seven arguments, the last boundary at the
    result buffer is the reference's result term. Both sides are the same tree of host operations over the argument
    arrays — the kernel's read back from its line of host operations, the reference's as its run states it. -/
theorem value (c : Dev nD) (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    W10 m ρ c (Proc.devRef .tc main_v94) = Cert.ReferenceIdeal.Value.res_main_v94 m' c := by
  rw [W10_eq m ρ c]
  after_results_simp
  read_rest
  simp only [ofBuf_toBuf, ofBuf_cst_2, ofBuf_v14, ofBuf_v15, toBuf_v16, ofBuf_v48, toBuf_v49, ofBuf_cst_12, ofBuf_v60, ofBuf_v61, toBuf_v62, id]
  unfold Cert.ReferenceIdeal.Value.res_main_v94
  rw [h0, h1, h2, h3, h4, h5, h6]
  rfl

end Cert.KernelIdeal.Result

end
-- ==== Proof.lean ====
/-
  A two-layer graph convolution: the Pallas kernel against its jnp reference, over the extended reals.

  Both programs compute `out = conv (relu (conv x W1 b1)) W2 b2` where, for node features `z`, weights `W`, bias `b`,
  `conv z W b = scatter_add over destinations (norm · (z · W)[src]) + b` with self-loops of weight one added to the edge list,
  `deg` the weighted in-degree, `dis = rsqrt deg` where `deg > 0` and `0` elsewhere, and `norm = dis[src] · w · dis[dst]`.
  The two programs share every one of those host operations, in the same order and with the same constants. They differ
  in one place per layer: the reference forms `z · W` with one host matrix product, the kernel with a pallas_call that
  tiles the 100000 rows into 20 blocks of 5000, changes both operands to bf16 and multiplies each block on the matrix unit
  into a zero accumulator.

  At the ideal values a change of float format is the identity and a matrix product is the sum over the contracted axis,
  whatever the tiling and the order of accumulation. So each pallas_call leaves the buffers exactly as the host product
  would (Proof/Layer1Product.lean, Proof/Layer2Product.lean), the kernel's whole run is the reference's line of host operations
  (Proof/ResultValue.lean, over the run of Proof/RunMem.lean), and the two results are one function of the arguments. No law is used
  that fails at an infinity — only that a sum may be tiled by rows — so the precondition is never opened. Out-of-range
  edge indices need no care either: both programs hand the same indices to the same gather and scatter.

  The three frames are the generated ones (the reference's is its generated run with the result dropped). The ideal pass
  rewrote nothing in the kernel, so `preserves` is `True`.
-/
import proofs.«145060_j9423158247570_1_alg».proof.Defs
import proofs.«145060_j9423158247570_1_alg».proof.Proof.Gen.Kernel
import proofs.«145060_j9423158247570_1_alg».proof.Proof.Gen.Kernel.Skeleton
import proofs.«145060_j9423158247570_1_alg».proof.Proof.Gen.Kernel.Launch
import proofs.«145060_j9423158247570_1_alg».proof.Proof.Gen.Kernel.Points
import proofs.«145060_j9423158247570_1_alg».proof.Proof.Gen.Kernel.Frame
import proofs.«145060_j9423158247570_1_alg».proof.Proof.Gen.KernelIdeal
import proofs.«145060_j9423158247570_1_alg».proof.Proof.Gen.KernelIdeal.Skeleton
import proofs.«145060_j9423158247570_1_alg».proof.Proof.Gen.KernelIdeal.Launch
import proofs.«145060_j9423158247570_1_alg».proof.Proof.Gen.KernelIdeal.Points
import proofs.«145060_j9423158247570_1_alg».proof.Proof.Gen.KernelIdeal.Frame
import proofs.«145060_j9423158247570_1_alg».proof.Proof.Gen.ReferenceIdeal
import proofs.«145060_j9423158247570_1_alg».proof.Proof.Gen.ReferenceIdeal.Run
import proofs.«145060_j9423158247570_1_alg».proof.Proof.Gen.Pre_finite_inputs
import proofs.«145060_j9423158247570_1_alg».proof.Proof.RunMem
import proofs.«145060_j9423158247570_1_alg».proof.Proof.ResultValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's result term of its own arguments: the reference by its run;
    the kernel because every buffer ends at the last boundary's contents and that boundary, at the result buffer, is that
    term, the two memories agreeing on the seven arguments. -/
theorem algebraic : Cert.algebraic_KernelIdeal_ReferenceIdeal := by
  intro m ρ m' ρ' _ hagree
  refine ⟨fun c => Cert.ReferenceIdeal.Value.res_main_v94 m' c, ?_, Cert.ReferenceIdeal.Value.run (F := Ideal) m' ρ'⟩
  refine (θ_run Cert.KernelIdeal.defs _ _).mono (fun r h c => ?_) (Cert.KernelIdeal.Whole.run_mem (F := Ideal) m ρ)
  exact ⟨(h c _ (Cert.KernelIdeal.Gen.mem_uc Cert.KernelIdeal.main_v94 (by decide))).trans
        (Cert.KernelIdeal.Result.value m ρ c m' (hagree c).1 (hagree c).2.1 (hagree c).2.2.1 (hagree c).2.2.2.1
          (hagree c).2.2.2.2.1 (hagree c).2.2.2.2.2.1 (hagree c).2.2.2.2.2.2),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
